-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x96x160x160 : Shape := ⟨5, ![8, 1, 96, 160, 160]⟩
abbrev S_ : Shape := ⟨0, ![]⟩

class Facts : Prop where
  bcast_S_S8x1x96x160x160 : S_.BroadcastsInDim S8x1x96x160x160 (![] : Fin 0 → Fin S8x1x96x160x160.rank)
  reducesTo_S8x1x96x160x160_S_d0_1_2_3_4 : S8x1x96x160x160.ReducesTo [0, 1, 2, 3, 4] S_
  h_S_ : 0 < S_.numel

variable [Facts]

def fn {F : FTy → Type} [FloatOps F] (main_arg0 : FVec F S8x1x96x160x160 .f32) (main_arg1 : FVec F S8x1x96x160x160 .f32) : IVec S_ 1 :=
  let main_v0 : FVec F S8x1x96x160x160 .f32 := Host.absf main_arg0
  let main_cst : FVec F S_ .f32 := constant S_ .f32 0x7F800000#32
  let main_v1 : FVec F S8x1x96x160x160 .f32 := broadcastInDim S8x1x96x160x160 ![] bcast_S_S8x1x96x160x160 main_cst
  let main_v2 : IVec S8x1x96x160x160 1 := cmpf .olt main_v0 main_v1
  let main_c : IVec S_ 1 := constantI S_ 1 1#1
  let main_v3 : IVec S_ 1 := (fun x v => Host.reduce IntOp.andi x v reducesTo_S8x1x96x160x160_S_d0_1_2_3_4 h_S_) main_v2 main_c
  let main_v4 : FVec F S8x1x96x160x160 .f32 := Host.absf main_arg1
  let main_cst_0 : FVec F S_ .f32 := constant S_ .f32 0x7F800000#32
  let main_v5 : FVec F S8x1x96x160x160 .f32 := broadcastInDim S8x1x96x160x160 ![] bcast_S_S8x1x96x160x160 main_cst_0
  let main_v6 : IVec S8x1x96x160x160 1 := cmpf .olt main_v4 main_v5
  let main_c_1 : IVec S_ 1 := constantI S_ 1 1#1
  let main_v7 : IVec S_ 1 := (fun x v => Host.reduce IntOp.andi x v reducesTo_S8x1x96x160x160_S_d0_1_2_3_4 h_S_) main_v6 main_c_1
  let main_v8 : IVec S_ 1 := andi main_v3 main_v7
  main_v8
-- ==== Kernel.lean ====
abbrev S8x1x96x160x160 : Shape := ⟨5, ![8, 1, 96, 160, 160]⟩
abbrev S2x76800x128 : Shape := ⟨3, ![2, 76800, 128]⟩
abbrev S2x8x128 : Shape := ⟨3, ![2, 8, 128]⟩
abbrev S1x6400x128 : Shape := ⟨3, ![1, 6400, 128]⟩
abbrev S1x8x128 : Shape := ⟨3, ![1, 8, 128]⟩
abbrev S8x128 : Shape := ⟨2, ![8, 128]⟩
abbrev S6400x128 : Shape := ⟨2, ![6400, 128]⟩
abbrev S800x8x128 : Shape := ⟨3, ![800, 8, 128]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S8x1x96x160x160, .f32⟩
  | .hbm, ⟨1, _⟩ => ⟨S8x1x96x160x160, .f32⟩
  | .hbm, ⟨2, _⟩ => ⟨S2x76800x128, .f32⟩
  | .hbm, ⟨3, _⟩ => ⟨S2x76800x128, .f32⟩
  | .hbm, ⟨4, _⟩ => ⟨S2x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x6400x128, .f32⟩
  | .local _ .vmem, ⟨1, _⟩ => ⟨S1x6400x128, .f32⟩
  | .local _ .vmem, ⟨2, _⟩ => ⟨S1x6400x128, .f32⟩
  | .local _ .vmem, ⟨3, _⟩ => ⟨S1x6400x128, .f32⟩
  | .local _ .vmem, ⟨4, _⟩ => ⟨S1x8x128, .f32⟩
  | .local _ .vmem, ⟨5, _⟩ => ⟨S1x8x128, .f32⟩
  | _, _ => ⟨S8x1x96x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x1x96x160x160_S2x76800x128 : S8x1x96x160x160.ShapeCasts S2x76800x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1x6400x128_S1x6400x128_0_0_0 : ∀ a, (![0, 0, 0] : Fin 3 → Nat) a + S1x6400x128.size a ≤ S1x6400x128.size a
  h_S1x6400x128 : 0 < S1x6400x128.numel
  shapeCasts_S1x6400x128_S6400x128 : S1x6400x128.ShapeCasts S6400x128
  shapeCasts_S6400x128_S800x8x128 : S6400x128.ShapeCasts S800x8x128
  reduces_S800x8x128_S8x128 : S800x8x128.Reduces [0] S8x128
  reducesTo_S2x8x128_S_d0_1_2 : S2x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x6400x128.size a ≤ S2x76800x128.size a
  hwx0_0 : ∀ i : grid0.Coords, EltTy.bits .f32 = 32 ∨ (Rect.block (s := S2x76800x128) S1x6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x6400x128.size a ≤ S2x76800x128.size a
  hwx0_1 : ∀ i : grid0.Coords, EltTy.bits .f32 = 32 ∨ (Rect.block (s := S2x76800x128) S1x6400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v0) S1x6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1x96x160x160 : Shape := ⟨5, ![8, 1, 96, 160, 160]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8x1x96x160x160, .f32⟩
  | .hbm, ⟨1, _⟩ => ⟨S8x1x96x160x160, .f32⟩
  | .hbm, ⟨2, _⟩ => ⟨S8x1x96x160x160, .f32⟩
  | .hbm, ⟨3, _⟩ => ⟨S8x1x96x160x160, .f32⟩
  | .hbm, ⟨4, _⟩ => ⟨S_, .f32⟩
  | .hbm, ⟨5, _⟩ => ⟨S8x1x96x160x160, .f32⟩
  | .hbm, ⟨6, _⟩ => ⟨S8x1x96x160x160, .f32⟩
  | .hbm, ⟨7, _⟩ => ⟨S_, .f32⟩
  | .hbm, ⟨8, _⟩ => ⟨S8x1x96x160x160, .f32⟩
  | .hbm, ⟨9, _⟩ => ⟨S8x1x96x160x160, .f32⟩
  | .hbm, ⟨10, _⟩ => ⟨S_, .f32⟩
  | .hbm, ⟨11, _⟩ => ⟨S8x1x96x160x160, .f32⟩
  | .hbm, ⟨12, _⟩ => ⟨S8x1x96x160x160, .i1⟩
  | .hbm, ⟨13, _⟩ => ⟨S_, .f32⟩
  | .hbm, ⟨14, _⟩ => ⟨S8x1x96x160x160, .f32⟩
  | .hbm, ⟨15, _⟩ => ⟨S8x1x96x160x160, .i1⟩
  | .hbm, ⟨16, _⟩ => ⟨S8x1x96x160x160, .i1⟩
  | .hbm, ⟨17, _⟩ => ⟨S8x1x96x160x160, .i1⟩
  | .hbm, ⟨18, _⟩ => ⟨S8x1x96x160x160, .f32⟩
  | .hbm, ⟨19, _⟩ => ⟨S8x1x96x160x160, .i1⟩
  | .hbm, ⟨20, _⟩ => ⟨S8x1x96x160x160, .i1⟩
  | .hbm, ⟨21, _⟩ => ⟨S8x1x96x160x160, .f32⟩
  | .hbm, ⟨22, _⟩ => ⟨S_, .f32⟩
  | .hbm, ⟨23, _⟩ => ⟨S8x1x96x160x160, .f32⟩
  | .hbm, ⟨24, _⟩ => ⟨S8x1x96x160x160, .f32⟩
  | .hbm, ⟨25, _⟩ => ⟨S8x1x96x160x160, .f32⟩
  | .hbm, ⟨26, _⟩ => ⟨S8x1x96x160x160, .f32⟩
  | .hbm, ⟨27, _⟩ => ⟨S8x1x96x160x160, .f32⟩
  | .hbm, ⟨28, _⟩ => ⟨S8x1x96x160x160, .f32⟩
  | .hbm, ⟨29, _⟩ => ⟨S8x1x96x160x160, .f32⟩
  | .hbm, ⟨30, _⟩ => ⟨S8x1x96x160x160, .f32⟩
  | .hbm, ⟨31, _⟩ => ⟨S8x1x96x160x160, .f32⟩
  | .hbm, ⟨32, _⟩ => ⟨S_, .f32⟩
  | .hbm, ⟨33, _⟩ => ⟨S8x1x96x160x160, .f32⟩
  | .hbm, ⟨34, _⟩ => ⟨S8x1x96x160x160, .f32⟩
  | .hbm, ⟨35, _⟩ => ⟨S8x1x96x160x160, .f32⟩
  | .hbm, ⟨36, _⟩ => ⟨S8x1x96x160x160, .f32⟩
  | .hbm, ⟨37, _⟩ => ⟨S_, .f32⟩
  | .hbm, ⟨38, _⟩ => ⟨S8x1x96x160x160, .f32⟩
  | .hbm, ⟨39, _⟩ => ⟨S8x1x96x160x160, .f32⟩
  | .hbm, ⟨40, _⟩ => ⟨S8x1x96x160x160, .f32⟩
  | .hbm, ⟨41, _⟩ => ⟨S8x1x96x160x160, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S8x1x96x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  bcast_S_S8x1x96x160x160 : S_.BroadcastsInDim S8x1x96x160x160 (![] : Fin 0 → Fin S8x1x96x160x160.rank)
  reducesTo_S8x1x96x160x160_S_d0_1_2_3_4 : S8x1x96x160x160.ReducesTo [0, 1, 2, 3, 4] S_
  h_S_ : 0 < S_.numel

variable [Facts₀]

class Facts : Prop extends Facts₀ where

variable [Facts]
-- ==== Proof.Pointwise.lean ====
/-
  The arithmetic of one voxel, on the extended reals.

  Both programs weight the binary cross-entropy with logits of a prediction `x` against a label `t`,
      L(x, t) = max(x, 0) − x·t + log(1 + exp(−|x|)),
  by a factor that is 3/2 on a critical voxel (the thresholded prediction and the label disagree) and 1 elsewhere.
  One program thresholds the logit itself (`x > 0`) and multiplies L by the selected factor; the other thresholds
  the logistic function of the logit (`1 / (1 + exp(−x)) > 1/2`) and adds to L one half of L for a missed
  foreground voxel and one half of L for a false foreground voxel. For real `x` and `t` the two agree: the
  logistic function exceeds 1/2 exactly when its argument is positive, the two kinds of critical voxel exclude each
  other, and L is a real number, so that L·(3/2) = L + (1/2)·L.
-/
import Idealize.ShloMosaic.PureOps.Ideal
import Idealize.ShloMosaic.PureOps.Ideal.Laws

noncomputable section

namespace Cert.Bridge

open Idealize.ShloMosaic

/-! ## The four float literals the programs spell -/

/-- The pattern of `+0.0` denotes `0`. -/
theorem lit_zero : Ideal.ofBits .f32 0x00000000#32 = 0 := Ideal.ofBits_zero_f32

/-- The pattern of `0.5` denotes the real `1/2`. -/
theorem lit_half : Ideal.ofBits .f32 0x3F000000#32 = ((1 / 2 : ℝ) : EReal) := by
  simp [Ideal.ofBits, Ideal.ieee, -EReal.coe_mul]; norm_num

/-- The pattern of `1.0` denotes the real `1`. -/
theorem lit_one : Ideal.ofBits .f32 0x3F800000#32 = ((1 : ℝ) : EReal) := by
  simp [Ideal.ofBits, Ideal.ieee, -EReal.coe_mul]; norm_num

/-- The pattern of `1.5` denotes the real `3/2`. -/
theorem lit_three_halves : Ideal.ofBits .f32 0x3FC00000#32 = ((3 / 2 : ℝ) : EReal) := by
  simp [Ideal.ofBits, Ideal.ieee, -EReal.coe_mul]; norm_num

/-! ## The loss of one voxel, as each program spells it -/

/-- The cross-entropy with the absolute value negated by subtracting it from zero. -/
def bceSub (x t : EReal) : EReal :=
  max x (Ideal.ofBits .f32 0x00000000#32) - x * t
    + Ideal.log1p (Ideal.exp (Ideal.ofBits .f32 0x00000000#32 - max x (-x)))

/-- The cross-entropy with the absolute value negated by a negation. -/
def bceNeg (x t : EReal) : EReal :=
  max x (Ideal.ofBits .f32 0x00000000#32) - x * t + Ideal.log1p (Ideal.exp (-(max x (-x))))

/-- The weighted loss with ONE selected factor: 3/2 where exactly one of `x > 0`, `t > 1/2` holds, else 1. -/
def weightedSel (x t : EReal) : EReal :=
  bceSub x t * Scalar.select (IntOp.xori (Ideal.cmp .ogt x (Ideal.ofBits .f32 0x00000000#32))
      (Ideal.cmp .ogt t (Ideal.ofBits .f32 0x3F000000#32)))
    (Ideal.ofBits .f32 0x3FC00000#32) (Ideal.ofBits .f32 0x3F800000#32)

/-- The bit "the logistic function of `x` exceeds 1/2". -/
def sigBit (x : EReal) : BitVec 1 :=
  Ideal.cmp .ogt (Ideal.div (Ideal.ofBits .f32 0x3F800000#32) (Ideal.ofBits .f32 0x3F800000#32 + Ideal.exp (-x)))
    (Ideal.ofBits .f32 0x3F000000#32)

/-- The weighted loss with TWO masks added: `L + (1/2·[t > 1/2 ∧ ¬σ(x) > 1/2])·L + (1/2·[¬t > 1/2 ∧ σ(x) > 1/2])·L`. -/
def weightedAdd (x t : EReal) : EReal :=
  bceNeg x t
    + Ideal.ofBits .f32 0x3F000000#32
        * (((IntOp.andi (Ideal.cmp .ogt t (Ideal.ofBits .f32 0x3F000000#32)) (~~~(sigBit x))).toNat : ℝ) : EReal)
      * bceNeg x t
    + Ideal.ofBits .f32 0x3F000000#32
        * (((IntOp.andi (~~~(Ideal.cmp .ogt t (Ideal.ofBits .f32 0x3F000000#32))) (sigBit x)).toNat : ℝ) : EReal)
      * bceNeg x t

/-! ## They agree on the reals -/

/-- The inclusion of the reals keeps maxima. -/
theorem coe_max (a b : ℝ) : ((max a b : ℝ) : EReal) = max (a : EReal) (b : EReal) :=
  EReal.coe_strictMono.monotone.map_max

/-- The cross-entropy of two reals is the real number the formula names. -/
theorem bceNeg_coe (a b : ℝ) :
    bceNeg (a : EReal) (b : EReal) = ((max a 0 - a * b + Real.log (1 + Real.exp (-(max a (-a)))) : ℝ) : EReal) := by
  unfold bceNeg
  have h1 : Ideal.log1p (Ideal.exp (-(max (a : EReal) (-(a : EReal)))))
      = ((Real.log (1 + Real.exp (-(max a (-a)))) : ℝ) : EReal) := by
    rw [← EReal.coe_neg, ← coe_max, ← EReal.coe_neg, Ideal.exp_coe]
    unfold Ideal.log1p
    rw [← EReal.coe_one, ← EReal.coe_add, Ideal.log_coe, if_neg (not_le.mpr (by positivity))]
  rw [h1, lit_zero, ← EReal.coe_zero, ← coe_max, ← EReal.coe_mul, ← EReal.coe_sub, ← EReal.coe_add]

/-- Subtracting from zero is negating: the two spellings of the cross-entropy are one function. -/
theorem bceSub_eq_bceNeg (x t : EReal) : bceSub x t = bceNeg x t := by
  unfold bceSub bceNeg
  rw [lit_zero, zero_sub]

/-- The logistic function of a real exceeds 1/2 exactly when the real is positive. -/
theorem sigBit_coe (a : ℝ) : sigBit (a : EReal) = Ideal.cmp .ogt (a : EReal) (Ideal.ofBits .f32 0x00000000#32) := by
  unfold sigBit
  have hpos : (0 : ℝ) < 1 + Real.exp (-a) := by positivity
  rw [lit_one, lit_half, lit_zero, ← EReal.coe_neg, Ideal.exp_coe, ← EReal.coe_add,
    Ideal.div_coe (ne_of_gt hpos), ← EReal.coe_mul]
  unfold Ideal.cmp
  simp only [← EReal.coe_zero, EReal.coe_lt_coe_iff]
  congr 2
  rw [one_mul, one_div, one_div, inv_lt_inv₀ (by norm_num) hpos]
  apply propext
  constructor
  · intro h
    have : Real.exp (-a) < 1 := by linarith
    have h0 : Real.exp (-a) < Real.exp 0 := by rw [Real.exp_zero]; exact this
    have := Real.exp_lt_exp.mp h0
    linarith
  · intro h
    have h0 : Real.exp (-a) < Real.exp 0 := Real.exp_lt_exp.mpr (by linarith)
    rw [Real.exp_zero] at h0
    linarith

/-- THE LAW OF ONE VOXEL: on real arguments the selected factor and the two added masks give one number. -/
theorem weightedSel_eq_weightedAdd (a b : ℝ) : weightedSel (a : EReal) (b : EReal) = weightedAdd (a : EReal) (b : EReal) := by
  unfold weightedSel weightedAdd
  rw [bceSub_eq_bceNeg, sigBit_coe, bceNeg_coe]
  generalize (max a 0 - a * b + Real.log (1 + Real.exp (-(max a (-a))))) = l
  rw [lit_zero, lit_half, lit_one, lit_three_halves]
  unfold Ideal.cmp Scalar.select IntOp.xori IntOp.andi
  simp only [← EReal.coe_zero, EReal.coe_lt_coe_iff]
  generalize decide ((0 : ℝ) < a) = p
  generalize decide ((1 / 2 : ℝ) < b) = q
  cases p <;> cases q <;> simp [← EReal.coe_mul, ← EReal.coe_add] <;> ring

end Cert.Bridge

end
-- ==== Proof.Payload.lean ====
/-
  What the kernel body stores, entry by entry.

  The body loads a tile of 6 400 rows of predictions and of labels, computes the weighted loss of every voxel of the
  tile, regroups the 6 400 rows as 800 groups of 8 and adds the groups together, and adds the resulting 8 rows to
  the accumulator it loaded. So the stored accumulator entry `(s, l)` is the loaded one plus the sum over the 800
  groups `r` of the weighted loss at row `8·r + s`, lane `l` of the tile.
-/
import proofs.«172619_j56169582297100_2_alg».proof.Proof.Gen.KernelIdeal.Skeleton
import proofs.«172619_j56169582297100_2_alg».proof.Proof.Pointwise
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Cert.KernelIdeal Cert.KernelIdeal.Gen Cert.Bridge
open Idealize.ShloMosaic Idealize.ShloMosaic.ValueIdx

/-- The weighted loss of every voxel of a tile. -/
def tileLoss (a b : FVec Ideal S6400x128 .f32) : FVec Ideal S6400x128 .f32 := fun i => weightedSel (a i) (b i)

/-- The sum over the groups of 8 rows, at accumulator entry `(s, l)`: the sum over `r` of the regrouped tile at
    `(r, s, l)`. -/
theorem groupSum_apply (src : FVec Ideal S800x8x128 .f32) (h : S800x8x128.Reduces [0] S8x128) (hφ : FKind.Formats .f32)
    (hacc : (0x00000000#32 : BitVec 32) = 0x00000000#32) (s : Fin 8) (l : Fin 128) :
    multiReduction .add [0] S8x128 src 0x00000000#32 h hφ hacc (ix2 s l) = ∑ r : Fin 800, src (ix3 r s l) := by
  refine (Ideal.multiReduction_add_single src 0x00000000#32 h hφ hacc (ix2 s l)).trans ?_
  refine Finset.sum_congr rfl fun r _ => congrArg src ?_
  funext a
  match a with
  | ⟨0, _⟩ => rfl
  | ⟨1, _⟩ => rfl
  | ⟨2, _⟩ => rfl

/-- Regrouping 6 400 rows as 800 groups of 8 reads `(r, s, l)` at row `8·r + s`. -/
theorem regroup_apply (v : FVec Ideal S6400x128 .f32) (h : S6400x128.ShapeCasts S800x8x128) (r : Fin 800) (s : Fin 8)
    (l : Fin 128) (b : Fin 6400) (hb : b.val = r.val * 8 + s.val) :
    shapeCast S800x8x128 v h (ix3 r s l) = v (ix2 b l) :=
  shapeCast_apply v h _ _ (by
    rw [Shape.rowMajor_val_two, Shape.rowMajor_val_three]
    show b.val * 128 + l.val = (r.val * 8 + s.val) * 128 + l.val
    rw [hb])

/-- The body's arithmetic is: drop the tiles' unit axis, take the weighted loss voxel by voxel, regroup, sum the
    groups, add to the loaded accumulator. -/
theorem pay2_eq (x0 x1 : Vec Ideal S1x6400x128 .f32) (acc : Vec Ideal S1x8x128 .f32) :
    k0_pay2 x0 x1 acc
      = shapeCast S1x8x128 (addf (shapeCast S8x128 acc shapeCasts_S1x8x128_S8x128)
          (multiReduction .add [0] S8x128
            (shapeCast S800x8x128 (tileLoss (shapeCast S6400x128 x0 shapeCasts_S1x6400x128_S6400x128)
              (shapeCast S6400x128 x1 shapeCasts_S1x6400x128_S6400x128)) shapeCasts_S6400x128_S800x8x128)
            0x00000000#32 reduces_S800x8x128_S8x128 (.inl rfl) rfl)) shapeCasts_S8x128_S1x8x128 := rfl

/-- THE STORED ACCUMULATOR at entry `(s, l)`: the loaded one plus the 800 groups' weighted losses. -/
theorem pay2_apply (x0 x1 : Vec Ideal S1x6400x128 .f32) (acc : Vec Ideal S1x8x128 .f32) (u : Fin 1) (s : Fin 8)
    (l : Fin 128) :
    k0_pay2 x0 x1 acc (ix3 u s l)
      = acc (ix3 (0 : Fin 1) s l)
        + ∑ r : Fin 800, weightedSel
            (x0 (ix3 (0 : Fin 1) (⟨r.val * 8 + s.val, by have := r.isLt; have := s.isLt; omega⟩ : Fin 6400) l))
            (x1 (ix3 (0 : Fin 1) (⟨r.val * 8 + s.val, by have := r.isLt; have := s.isLt; omega⟩ : Fin 6400) l)) := by
  rw [pay2_eq, shapeCast_ab_1ab_apply, addf_apply, shapeCast_1ab_ab_apply, groupSum_apply]
  refine congrArg _ (Finset.sum_congr rfl fun r _ => ?_)
  rw [regroup_apply _ _ r s l ⟨r.val * 8 + s.val, by have := r.isLt; have := s.isLt; omega⟩ rfl]
  show weightedSel (shapeCast S6400x128 x0 _ (ix2 _ l)) (shapeCast S6400x128 x1 _ (ix2 _ l)) = _
  rw [shapeCast_1ab_ab_apply, shapeCast_1ab_ab_apply]

/-- The reset stores zeros. -/
theorem pay1_apply (u : Fin 1) (s : Fin 8) (l : Fin 128) :
    k0_pay1 (F := Ideal) (ix3 u s l) = Ideal.ofBits .f32 0x00000000#32 := by
  unfold k0_pay1
  rw [shapeCast_ab_1ab_apply]
  rfl

end Cert.KernelIdeal.Bridge

end
-- ==== Proof.Cases.lean ====
/-
  What the accumulator's staging buffer holds after each grid point.

  At the first tile of a half the body stores zeros, reads them back, and leaves zero plus the tile's group sums; at
  every later tile it leaves what the tile before left plus the tile's group sums.
-/
import proofs.«172619_j56169582297100_2_alg».proof.Proof.Gen.KernelIdeal.Frame
import proofs.«172619_j56169582297100_2_alg».proof.Proof.Payload
import Idealize.ShloMosaic.Lib.Pipeline.Value
import Idealize.ShloMosaic.Lib.Tactic

noncomputable section

namespace Cert.KernelIdeal.Bridge

open Cert.KernelIdeal Cert.KernelIdeal.Gen Cert.Bridge
open Idealize.ShloMosaic Idealize.ShloMosaic.TcCoe Idealize.ShloMosaic.ValueIdx Idealize.SL.Sem
open Idealize.ShloMosaic.Pipeline (Dat)

theorem hz3 : (![0, 0, 0] : Fin 3 → Nat) = fun _ => 0 := funext fun a => by fin_cases a <;> rfl

/-- A LATER TILE (the reset not taken): the one covering store's payload, over the loaded tiles and the accumulator
    as the tile before left it. -/
theorem out_B (c : Dev nD) (i : grid0.Coords) (a2 : Memref sig .tc .vmem S1x6400x128 .f32) (h2 : a2.IsWhole)
    (a3 : Memref sig .tc .vmem S1x6400x128 .f32) (h3 : a3.IsWhole) (a4 : Memref sig .tc .vmem S1x8x128 .f32)
    (h4 : a4.IsWhole) (hc : ¬cond0_0 i) (x0 x1 : Vec Ideal S1x6400x128 .f32) (xo : Vec Ideal S1x8x128 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz3]
  simp only [View.readAt_eq_ld, h2.read_unread, h3.read_unread, h4.read_unread,
    View.ld_unit_zero (S := S1x6400x128) hz3, View.ld_unit_zero (S := S1x8x128) hz3]

/-- THE FIRST TILE of a half (the reset taken): the zeros are stored, read back, and the payload over them stored. -/
theorem out_A (c : Dev nD) (i : grid0.Coords) (a2 : Memref sig .tc .vmem S1x6400x128 .f32) (h2 : a2.IsWhole)
    (a3 : Memref sig .tc .vmem S1x6400x128 .f32) (h3 : a3.IsWhole) (a4 : Memref sig .tc .vmem S1x8x128 .f32)
    (h4 : a4.IsWhole) (hc : cond0_0 i) (x0 x1 : Vec Ideal S1x6400x128 .f32) :
    out0_A_2 c i a2 h2 a3 h3 a4 h4 hc x0 x1 = k0_pay2 x0 x1 (k0_pay1 (F := Ideal)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, View.ld_unit_zero (S := S1x6400x128) hz3]

end Cert.KernelIdeal.Bridge

end
-- ==== Proof.Blocks.lean ====
/-
  Where a tile sits in the flattened input.

  The host flattens each input to halves × rows × lanes before the launch. At grid point `t` the input windows hold
  tile `t % 12` of half `t / 12`: row `b` of the tile is row `6400·(t % 12) + b` of the half. The accumulator
  window holds block `t / 12` of the [2, 8, 128] result.
-/
import proofs.«172619_j56169582297100_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Bridge

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The flattened predictions, as the region finds them: the first argument reshaped. -/
theorem V_v0 (c : Dev nD) :
    V m c main_v0 = shapeCast S2x76800x128 (m ((c : Thread nD τ).loc main_arg0)) shapeCasts_S8x1x96x160x160_S2x76800x128 := by
  show StableHlo.after hostOps0 (fun b => m (c, b)) (Proc.devRef .tc main_v0) = _
  after_results
  rfl

/-- The flattened labels, as the region finds them: the second argument reshaped. -/
theorem V_v1 (c : Dev nD) :
    V m c main_v1 = shapeCast S2x76800x128 (m ((c : Thread nD τ).loc main_arg1)) shapeCasts_S8x1x96x160x160_S2x76800x128 := by
  show StableHlo.after hostOps0 (fun b => m (c, b)) (Proc.devRef .tc main_v1) = _
  after_results
  rfl

/-- The printed index maps over the 24 grid points: the inputs' block is (t / 12, t % 12, 0), the accumulator's
    (t / 12, 0, 0). -/
theorem idx_facts : ∀ t : Fin cfg0.N,
    win0_0.index t (0 : Fin 3) = t.val / 12 ∧ win0_0.index t (1 : Fin 3) = t.val % 12 ∧ win0_0.index t (2 : Fin 3) = 0
    ∧ win0_1.index t (0 : Fin 3) = t.val / 12 ∧ win0_1.index t (1 : Fin 3) = t.val % 12 ∧ win0_1.index t (2 : Fin 3) = 0
    ∧ win0_2.index t (0 : Fin 3) = t.val / 12 ∧ win0_2.index t (1 : Fin 3) = 0 ∧ win0_2.index t (2 : Fin 3) = 0 :=
  (by decide +kernel : ∀ t : Fin grid0.N, _)

/-- Entry `(b, l)` of the predictions' tile at point `t` is entry `(t / 12, 6400·(t % 12) + b, l)` of the
    flattened predictions. -/
theorem iblk0_apply (c : Dev nD) (t : Fin cfg0.N) (u : Fin 1) (b : Fin 6400) (l : Fin 128) (j : S2x76800x128.Idx)
    (h0 : (j 0).val = t.val / 12) (h1 : (j 1).val = t.val % 12 * 6400 + b.val) (h2 : (j 2).val = l.val) :
    (iblk m c 0 t : Vec Ideal S1x6400x128 .f32) (ix3 u b l) = V m c main_v0 j := by
  obtain ⟨e0, e1, e2, -⟩ := idx_facts t
  unfold iblk
  rw [View.read_apply]
  show V m c main_v0 _ = V m c main_v0 _
  refine congrArg _ (funext fun a => Fin.ext ?_)
  match a with
  | ⟨0, _⟩ => show win0_0.index t (0 : Fin 3) * 1 + 1 * u.val = (j 0).val; omega
  | ⟨1, _⟩ => show win0_0.index t (1 : Fin 3) * 6400 + 1 * b.val = (j 1).val; omega
  | ⟨2, _⟩ => show win0_0.index t (2 : Fin 3) * 128 + 1 * l.val = (j 2).val; omega

/-- The same for the labels' tile. -/
theorem iblk1_apply (c : Dev nD) (t : Fin cfg0.N) (u : Fin 1) (b : Fin 6400) (l : Fin 128) (j : S2x76800x128.Idx)
    (h0 : (j 0).val = t.val / 12) (h1 : (j 1).val = t.val % 12 * 6400 + b.val) (h2 : (j 2).val = l.val) :
    (iblk m c 1 t : Vec Ideal S1x6400x128 .f32) (ix3 u b l) = V m c main_v1 j := by
  obtain ⟨-, -, -, e0, e1, e2, -⟩ := idx_facts t
  unfold iblk
  rw [View.read_apply]
  show V m c main_v1 _ = V m c main_v1 _
  refine congrArg _ (funext fun a => Fin.ext ?_)
  match a with
  | ⟨0, _⟩ => show win0_1.index t (0 : Fin 3) * 1 + 1 * u.val = (j 0).val; omega
  | ⟨1, _⟩ => show win0_1.index t (1 : Fin 3) * 6400 + 1 * b.val = (j 1).val; omega
  | ⟨2, _⟩ => show win0_1.index t (2 : Fin 3) * 128 + 1 * l.val = (j 2).val; omega

end Cert.KernelIdeal.Bridge

end
-- ==== Proof.RowSplit.lean ====
/-
  How the 153 600 rows of 128 lanes are shared out.

  The flattened input has 2 halves of 76 800 rows. Half `p` is walked in 12 tiles of 6 400 rows; inside a tile, row
  `8·r + s` (`r < 800`, `s < 8`) is added into row `s` of an 8-row accumulator. So entry `(p, s, l)` of the
  [2, 8, 128] accumulator array gathers the rows `6400·k + 8·r + s` of half `p`, lane `l`, over all `k < 12` and
  `r < 800`, and every row of the input is gathered by exactly one accumulator entry: summing the accumulator
  array over its entries is summing the input over all its entries.
-/
import Idealize.ShloMosaic.Lib.ValueIdx

noncomputable section

namespace Cert.Bridge

open Idealize.ShloMosaic Idealize.ShloMosaic.ValueIdx

/-- The input, flattened to halves × rows × lanes. -/
abbrev Rows : Shape := ⟨3, ![2, 76800, 128]⟩
/-- The accumulator array: halves × 8 rows × lanes. -/
abbrev Acc : Shape := ⟨3, ![2, 8, 128]⟩

/-- The input entry that tile `k`, group `r` adds into accumulator entry `o = (p, s, l)`: half `p`, row
    `6400·k + 8·r + s`, lane `l`. -/
def rowIdx (o : Acc.Idx) (k : Fin 12) (r : Fin 800) : Rows.Idx :=
  ix3 (o 0) (⟨k.val * 6400 + r.val * 8 + (o 1).val, by
    have h1 : (o 1).val < 8 := (o 1).isLt
    have := k.isLt; have := r.isLt; omega⟩ : Fin 76800) (o 2)

/-- Every input entry is gathered by exactly one (accumulator entry, tile, group): a row number `b < 76800` is
    `6400·(b / 6400) + 8·(b % 6400 / 8) + b % 8` in one way. -/
def rowsEquiv : (Acc.Idx × Fin 12 × Fin 800) ≃ Rows.Idx where
  toFun q := rowIdx q.1 q.2.1 q.2.2
  invFun j := (ix3 (j 0) (⟨(j 1).val % 8, Nat.mod_lt _ (by norm_num)⟩ : Fin 8) (j 2),
    ⟨(j 1).val / 6400, by have : (j 1).val < 76800 := (j 1).isLt; omega⟩,
    ⟨(j 1).val % 6400 / 8, by omega⟩)
  left_inv q := by
    obtain ⟨o, k, r⟩ := q
    have h1 : (o 1).val < 8 := (o 1).isLt
    have hk := k.isLt
    have hr := r.isLt
    refine Prod.ext ?_ (Prod.ext ?_ ?_)
    · funext a
      match a with
      | ⟨0, _⟩ => rfl
      | ⟨1, _⟩ => exact Fin.ext (show (k.val * 6400 + r.val * 8 + (o 1).val) % 8 = (o 1).val by omega)
      | ⟨2, _⟩ => rfl
    · exact Fin.ext (show (k.val * 6400 + r.val * 8 + (o 1).val) / 6400 = k.val by omega)
    · exact Fin.ext (show (k.val * 6400 + r.val * 8 + (o 1).val) % 6400 / 8 = r.val by omega)
  right_inv j := by
    funext a
    match a with
    | ⟨0, _⟩ => rfl
    | ⟨1, _⟩ =>
      exact Fin.ext (show (j 1).val / 6400 * 6400 + (j 1).val % 6400 / 8 * 8 + (j 1).val % 8 = (j 1).val by omega)
    | ⟨2, _⟩ => rfl

/-- A sum over the input's entries is the sum, over the accumulator's entries, of the sums over the tiles and the
    groups of rows each entry gathers. -/
theorem sum_rows {M : Type*} [AddCommMonoid M] (f : Rows.Idx → M) :
    ∑ j : Rows.Idx, f j = ∑ o : Acc.Idx, ∑ k : Fin 12, ∑ r : Fin 800, f (rowIdx o k r) := by
  rw [← rowsEquiv.sum_comp f, Fintype.sum_prod_type]
  refine Finset.sum_congr rfl fun o _ => ?_
  rw [Fintype.sum_prod_type]
  rfl

end Cert.Bridge

end
-- ==== Proof.Spec.lean ====
/-
  The accumulator array in closed form.

  Entry `(p, s, l)` of the accumulator array is the sum, over the 12 tiles `k` of half `p` and the 800 groups `r` of
  a tile, of the weighted loss at row `6400·k + 8·r + s`, lane `l` of the half. Summed over all its entries the
  array is the sum of the weighted loss over the whole flattened input.
-/
import proofs.«172619_j56169582297100_2_alg».proof.Proof.Pointwise
import proofs.«172619_j56169582297100_2_alg».proof.Proof.RowSplit

noncomputable section

namespace Cert.Bridge

open Idealize.ShloMosaic Idealize.ShloMosaic.ValueIdx

/-- What tile `k` of half `p` adds to accumulator entry `(s, l)`: its 800 groups' weighted losses (nothing past
    the twelfth tile). -/
def tileSum (X T : Rows.Idx → EReal) (p : Fin 2) (s : Fin 8) (l : Fin 128) (k : ℕ) : EReal :=
  if h : k < 12 then
    ∑ r : Fin 800, weightedSel (X (rowIdx (ix3 p s l) ⟨k, h⟩ r)) (T (rowIdx (ix3 p s l) ⟨k, h⟩ r))
  else 0

/-- The accumulator array after the last tile of each half. -/
def accFinal (X T : Rows.Idx → EReal) : Acc.Idx → EReal :=
  fun o => ∑ k : Fin 12, ∑ r : Fin 800, weightedSel (X (rowIdx o k r)) (T (rowIdx o k r))

/-- The twelve tiles' contributions add up to the final entry. -/
theorem sum_tileSum (X T : Rows.Idx → EReal) (p : Fin 2) (s : Fin 8) (l : Fin 128) :
    ∑ k ∈ Finset.range 12, tileSum X T p s l k = accFinal X T (ix3 p s l) := by
  unfold accFinal
  rw [← Fin.sum_univ_eq_sum_range]
  refine Finset.sum_congr rfl fun k _ => ?_
  unfold tileSum
  rw [dif_pos k.isLt]

/-- Summing the accumulator array over its entries sums the weighted loss over the whole flattened input. -/
theorem sum_accFinal (X T : Rows.Idx → EReal) :
    ∑ o : Acc.Idx, accFinal X T o = ∑ j : Rows.Idx, weightedSel (X j) (T j) :=
  (sum_rows fun j => weightedSel (X j) (T j)).symm

end Cert.Bridge

end
-- ==== Proof.Running.lean ====
/-
  The running sum across the tiles of a half.

  After grid point `n` (tile `n % 12` of half `n / 12`) the accumulator's staging buffer holds, at entry `(s, l)`,
  the contributions of tiles `0 … n % 12` of that half: by induction on the point, the first tile of a half starting
  from the stored zeros and every later tile adding to what the tile before left.
-/
import proofs.«172619_j56169582297100_2_alg».proof.Proof.Cases
import proofs.«172619_j56169582297100_2_alg».proof.Proof.Blocks
import proofs.«172619_j56169582297100_2_alg».proof.Proof.Spec

noncomputable section

namespace Cert.KernelIdeal.Bridge

open Cert.KernelIdeal Cert.KernelIdeal.Gen Cert.Bridge
open Idealize.ShloMosaic Idealize.ShloMosaic.TcCoe Idealize.ShloMosaic.ValueIdx Idealize.SL.Sem

variable (m : (ℓ : Loc nD τ sig) → Buf (Elt Ideal) ℓ)

/-- The 800 groups' weighted losses of the tiles at point `t` are tile `t % 12`'s contribution of half `t / 12`. -/
theorem tile_eq (c : Dev nD) (t : Fin cfg0.N) (s : Fin 8) (l : Fin 128) (p : Fin 2) (hp : p.val = t.val / 12) :
    ∑ r : Fin 800, weightedSel
        ((iblk m c 0 t : Vec Ideal S1x6400x128 .f32)
          (ix3 (0 : Fin 1) (⟨r.val * 8 + s.val, by have := r.isLt; have := s.isLt; omega⟩ : Fin 6400) l))
        ((iblk m c 1 t : Vec Ideal S1x6400x128 .f32)
          (ix3 (0 : Fin 1) (⟨r.val * 8 + s.val, by have := r.isLt; have := s.isLt; omega⟩ : Fin 6400) l))
      = tileSum (V m c main_v0) (V m c main_v1) p s l (t.val % 12) := by
  unfold tileSum
  rw [dif_pos (Nat.mod_lt _ (by norm_num))]
  refine Finset.sum_congr rfl fun r _ => ?_
  rw [iblk0_apply m c t 0 _ l (rowIdx (ix3 p s l) ⟨t.val % 12, Nat.mod_lt _ (by norm_num)⟩ r) hp
      (by show t.val % 12 * 6400 + r.val * 8 + s.val = t.val % 12 * 6400 + (r.val * 8 + s.val); omega) rfl,
    iblk1_apply m c t 0 _ l (rowIdx (ix3 p s l) ⟨t.val % 12, Nat.mod_lt _ (by norm_num)⟩ r) hp
      (by show t.val % 12 * 6400 + r.val * 8 + s.val = t.val % 12 * 6400 + (r.val * 8 + s.val); omega) rfl]

/-- THE RUNNING SUM: after point `n` the accumulator's staging buffer holds the contributions of tiles
    `0 … n % 12` of half `n / 12`. -/
theorem outsAt_apply (c : Dev nD) : ∀ (n : ℕ) (h : n < cfg0.N) (u : Fin 1) (s : Fin 8) (l : Fin 128) (p : Fin 2),
    p.val = n / 12 →
    outsAt0 m c n h (ix3 u s l) = ∑ k ∈ Finset.range (n % 12 + 1), tileSum (V m c main_v0) (V m c main_v1) p s l k
  | 0, h, u, s, l, p, hp => by
    rw [outsAt0_A m c ⟨0, h⟩ rfl, out_A, pay2_apply, pay1_apply, lit_zero, zero_add,
      tile_eq m c ⟨0, h⟩ s l p hp]
    show _ = ∑ k ∈ Finset.range 1, _
    rw [Finset.sum_range_one]
    rfl
  | n + 1, h, u, s, l, p, hp => by
    by_cases h0 : (n + 1) % 12 = 0
    · rw [outsAt0_A m c ⟨n + 1, h⟩ h0, out_A, pay2_apply, pay1_apply, lit_zero, zero_add,
        tile_eq m c ⟨n + 1, h⟩ s l p hp]
      show tileSum _ _ p s l ((n + 1) % 12) = ∑ k ∈ Finset.range ((n + 1) % 12 + 1), _
      rw [h0, Finset.sum_range_one]
    · rw [outsAt0_B m c ⟨n + 1, h⟩ h0, out_B, pay2_apply, tile_eq m c ⟨n + 1, h⟩ s l p hp]
      show outsAt0 m c n _ (ix3 (0 : Fin 1) s l) + tileSum _ _ p s l ((n + 1) % 12)
        = ∑ k ∈ Finset.range ((n + 1) % 12 + 1), _
      rw [Finset.sum_range_succ, outsAt_apply c n _ 0 s l p (by omega),
        show n % 12 + 1 = (n + 1) % 12 by omega]

end Cert.KernelIdeal.Bridge

end
-- ==== Proof.Final.lean ====
/-
  The kernel's result.

  The accumulator's block of half `p` is written back once, after the twelfth tile of the half, when it holds all
  twelve tiles' contributions; the two write-backs cover the [2, 8, 128] array. The host then sums that array over
  all its entries from zero and divides by the number of voxels.
-/
import proofs.«172619_j56169582297100_2_alg».proof.Proof.Running
import Idealize.ShloMosaic.Lib.Pipeline.Value
import Idealize.ShloMosaic.Lib.StableHlo.Run

noncomputable section

namespace Cert.KernelIdeal.Bridge

open Cert.KernelIdeal Cert.KernelIdeal.Gen Cert.Bridge
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- WHAT A WRITE-BACK WRITES: at the last tile of a half, the half's block of the closed form. -/
theorem flushed_eq (c : Dev nD) (t : Fin cfg0.N) (hf : (cfg0.win 2).flush t = true) :
    (dats m 0 c).flushed 2 t
      = ((cfg0.win 2).blk t).view.read (Elt Ideal) (accFinal (V m c main_v0) (V m c main_v1)) := by
  have hN : cfg0.N = 24 := N_0
  have hlt : t.val < 24 := lt_of_lt_of_eq t.isLt hN
  have h11 : t.val % 12 = 11 := (flush0_2 t).mp hf
  obtain ⟨-, -, -, -, -, -, e0, e1, e2⟩ := idx_facts t
  show (cfg0.win 2).cut (grid0.coords t) ((dats m 0 c).after 2 t) = _
  rw [after0_2]
  funext j
  obtain ⟨u, s, l, rfl⟩ : ∃ (u : Fin 1) (s : Fin 8) (l : Fin 128), j = (ix3 u s l : S1x8x128.Idx) :=
    ⟨j 0, j 1, j 2, eq_ix3 j⟩
  rw [View.read_apply]
  show outsAt0 m c t.val t.isLt (ix3 u s l) = accFinal _ _ _
  rw [outsAt_apply m c t.val t.isLt u s l ⟨t.val / 12, by omega⟩ rfl, h11, sum_tileSum]
  refine congrArg _ (funext fun a => Fin.ext ?_)
  match a with
  | ⟨0, _⟩ => show t.val / 12 = win0_2.index t (0 : Fin 3) * 1 + 1 * u.val; omega
  | ⟨1, _⟩ => show s.val = win0_2.index t (1 : Fin 3) * 8 + 1 * s.val; omega
  | ⟨2, _⟩ => show l.val = win0_2.index t (2 : Fin 3) * 128 + 1 * l.val; omega

/-- THE COVER: entry `(p, s, l)` of the array lies in the block written back after the last tile of half `p`. -/
theorem cover (i : S2x8x128.Idx) :
    ∃ t : Fin cfg0.N, (cfg0.win 2).flush t = true ∧ i ∈ ((cfg0.win 2).blk t).view.set := by
  have hN : cfg0.N = 24 := N_0
  have hi0 : (i 0).val < 2 := (i 0).isLt
  have hi1 : (i 1).val < 8 := (i 1).isLt
  have hi2 : (i 2).val < 128 := (i 2).isLt
  let t : Fin cfg0.N := ⟨(i 0).val * 12 + 11, by rw [hN]; omega⟩
  obtain ⟨-, -, -, -, -, -, e0, e1, e2⟩ := idx_facts t
  have ht : t.val = (i 0).val * 12 + 11 := rfl
  refine ⟨t, (flush0_2 t).mpr (by rw [ht]; omega), ?_⟩
  show i ∈ ((View.whole main_v2).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 8 ≤ (i 1).val ∧ (i 1).val < win0_2.index t (1 : Fin 3) * 8 + 8
    omega
  | ⟨2, _⟩ =>
    show win0_2.index t (2 : Fin 3) * 128 ≤ (i 2).val ∧ (i 2).val < win0_2.index t (2 : Fin 3) * 128 + 128
    omega

/-- THE ACCUMULATOR ARRAY after the launch is the closed form. -/
theorem final_acc (c : Dev nD) :
    (dats m 0 c).arrAt 2 cfg0.N = accFinal (V m c main_v0) (V m c main_v1) :=
  (dats m 0 c).arrAt_eq_of_cover 2 _ (flushed_eq m c) cover

/-- The host's lines after the launch leave, in the result buffer, the array's total from zero over the count. -/
theorem tail_v4 (c : Dev nD) :
    Pipeline.afterTail₀ cfgs (dats m) 0 (V0 m) [hostOps1] c main_v4
      = Host.divf (F := Ideal) (Host.reduceAdd (F := Ideal) (accFinal (V m c main_v0) (V m c main_v1))
          (constant (F := Ideal) S_ .f32 0x00000000#32) reducesTo_S2x8x128_S_d0_1_2 h_S_)
          (constant (F := Ideal) S_ .f32 0x4B960000#32) := by
  unfold Pipeline.afterTail₀
  show StableHlo.after hostOps1 _ (Proc.devRef .tc main_v4) = _
  after_results
  have e : Pipeline.withArrays (cfgs 0).spec c (V0 m c) (fun w => (dats m 0 c).arrAt w (cfgs 0).N)
      (Proc.devRef .tc main_v2) = accFinal (V m c main_v0) (V m c main_v1) :=
    (Pipeline.withArrays_arr spec0 launch0.win.arr_inj c _ _ 2).trans (final_acc m c)
  rw [e]

/-- THE KERNEL'S RUN, READ: every weakly fair execution terminates with the result buffer at the accumulator
    array's total from zero over the count, the arguments unchanged. -/
theorem run : θ_run defs (onTc (τ := τ) (main (F := Ideal))) ⟨m, fun _ => 0, ρ⟩ fun r => ∀ c : Dev nD,
      r.2.mem ((c : Thread nD τ).loc main_v4)
        = Host.divf (F := Ideal) (Host.reduceAdd (F := Ideal) (accFinal (V m c main_v0) (V m c main_v1))
            (constant (F := Ideal) S_ .f32 0x00000000#32) reducesTo_S2x8x128_S_d0_1_2 h_S_)
            (constant (F := Ideal) S_ .f32 0x4B960000#32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v4 (Pipeline.mem_restRefs_of main_v4 (by decide) (by decide))).trans (tail_v4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Bridge

end
-- ==== Proof.Finite.lean ====
/-
  What the precondition gives: every prediction and every label is a real number.

  The precondition says that the absolute value of every entry of both inputs is below +∞. On the extended reals
  the absolute value of ±∞ is +∞, so every entry is the image of a real.
-/
import proofs.«172619_j56169582297100_2_alg».proof.Pre_finite_inputs
import proofs.«172619_j56169582297100_2_alg».proof.Proof.Gen.Pre_finite_inputs
import Idealize.ShloMosaic.Lib.ReduceAll
import Idealize.ShloMosaic.Lib.IdealHost
import Idealize.ShloMosaic.Lib.ValueIdx
import Idealize.ShloMosaic.PureOps.Ideal

noncomputable section

namespace Cert.Pre_finite_inputs.Bridge

open Cert.Pre_finite_inputs Cert.Pre_finite_inputs.Gen Idealize.ShloMosaic Idealize.ShloMosaic.ValueIdx

instance : Subsingleton S_.Idx := ⟨fun a b => funext fun d => d.elim0⟩

/-- The pattern of +∞ denotes `⊤`. -/
theorem lit_inf : Ideal.ofBits .f32 0x7F800000#32 = ⊤ := by
  simp [Ideal.ofBits, Ideal.ieee]

/-- An extended real whose absolute value is below +∞ is a real. -/
theorem real_of_abs_lt (x : EReal) (h : Ideal.cmp .olt (max x (-x)) (Ideal.ofBits .f32 0x7F800000#32) = 1#1) :
    ∃ a : ℝ, x = (a : EReal) := by
  rw [lit_inf] at h
  unfold Ideal.cmp at h
  induction x using EReal.rec with
  | bot => simp at h
  | top => simp at h
  | coe a => exact ⟨a, rfl⟩

/-- THE PRECONDITION, READ: both inputs hold reals everywhere. -/
theorem finite_of_pre (x t : FVec Ideal S8x1x96x160x160 .f32) (h : fn (F := Ideal) x t = fun _ => 1#1) :
    (∀ i, ∃ a : ℝ, x i = (a : EReal)) ∧ (∀ i, ∃ b : ℝ, t i = (b : EReal)) := by
  have h0 := congrFun h ix0
  dsimp only [fn] at h0
  obtain ⟨h1, h2⟩ := IntOp.andi_eq_one.1 h0
  refine ⟨fun i => real_of_abs_lt _ ?_, fun i => real_of_abs_lt _ ?_⟩
  · have e := Host.reduce_andi_all _ _ _ _ _ h1 i
    rw [cmpf_apply, broadcastInDim_scalar_apply] at e
    exact e
  · have e := Host.reduce_andi_all _ _ _ _ _ h2 i
    rw [cmpf_apply, broadcastInDim_scalar_apply] at e
    exact e

end Cert.Pre_finite_inputs.Bridge

end
-- ==== Proof.Total.lean ====
/-
  The kernel's result is the reference's.

  The accumulator array's total is the weighted loss summed over the flattened input; flattening only renumbers the
  voxels, so that is the sum over the unflattened input; and on real predictions and labels the kernel's one selected
  factor and the reference's two added masks weight each voxel alike. Both programs then add the same zero and divide by
  the same count.
-/
import proofs.«172619_j56169582297100_2_alg».proof.Proof.Final
import proofs.«172619_j56169582297100_2_alg».proof.Proof.Finite
import Idealize.ShloMosaic.Lib.IdealHost
import Idealize.ShloMosaic.PureOps.Ideal.Laws

noncomputable section

namespace Cert.KernelIdeal.Bridge

open Cert.KernelIdeal Cert.KernelIdeal.Gen Cert.Bridge
open Idealize.ShloMosaic Idealize.ShloMosaic.TcCoe Idealize.ShloMosaic.ValueIdx Idealize.SL.Sem

/-- The mean weighted loss over the unflattened inputs, as both programs end with it. -/
def meanLoss (x t : S8x1x96x160x160.Idx → EReal) : S_.Idx → EReal :=
  fun _ => Ideal.div (Ideal.ofBits .f32 0x00000000#32 + ∑ i : S8x1x96x160x160.Idx, weightedAdd (x i) (t i))
    (Ideal.ofBits .f32 0x4B960000#32)

/-- Flattening renumbers the voxels: a sum over the flattened input is the sum over the unflattened one. -/
theorem sum_flatten {M : Type*} [AddCommMonoid M] (f : S8x1x96x160x160.Idx → M)
    (h : S8x1x96x160x160.ShapeCasts S2x76800x128) :
    ∑ j : S2x76800x128.Idx, f (Shape.reshapeEquiv h j) = ∑ i : S8x1x96x160x160.Idx, f i :=
  (Shape.reshapeEquiv h).sum_comp f

/-- THE BRIDGE: on real inputs the accumulator array's total from zero over the count is the mean weighted loss. -/
theorem total_eq (x t : S8x1x96x160x160.Idx → EReal) (hx : ∀ i, ∃ a : ℝ, x i = (a : EReal))
    (ht : ∀ i, ∃ b : ℝ, t i = (b : EReal)) :
    Host.divf (F := Ideal) (Host.reduceAdd (F := Ideal)
        (accFinal (shapeCast S2x76800x128 x shapeCasts_S8x1x96x160x160_S2x76800x128)
          (shapeCast S2x76800x128 t shapeCasts_S8x1x96x160x160_S2x76800x128))
        (constant (F := Ideal) S_ .f32 0x00000000#32) reducesTo_S2x8x128_S_d0_1_2 h_S_)
        (constant (F := Ideal) S_ .f32 0x4B960000#32)
      = meanLoss x t := by
  funext j
  have e : Host.reduceAdd (F := Ideal)
      (accFinal (shapeCast S2x76800x128 x shapeCasts_S8x1x96x160x160_S2x76800x128)
        (shapeCast S2x76800x128 t shapeCasts_S8x1x96x160x160_S2x76800x128))
      (constant (F := Ideal) S_ .f32 0x00000000#32) reducesTo_S2x8x128_S_d0_1_2 h_S_ j
      = Ideal.ofBits .f32 0x00000000#32 + ∑ i : S8x1x96x160x160.Idx, weightedAdd (x i) (t i) := by
    rw [hostReduceAdd_apply, Ideal.hostReduceAdd_total reducesTo_S2x8x128_S_d0_1_2 (fun b => b.elim0), sum_accFinal]
    refine congrArg (fun z => Ideal.ofBits .f32 0x00000000#32 + z) ?_
    unfold shapeCast
    rw [sum_flatten (fun i => weightedSel (x i) (t i))]
    refine Finset.sum_congr rfl fun i _ => ?_
    obtain ⟨a, ha⟩ := hx i
    obtain ⟨b, hb⟩ := ht i
    rw [ha, hb, weightedSel_eq_weightedAdd]
  exact congrArg (fun z => Ideal.div z (Ideal.ofBits .f32 0x4B960000#32)) e

end Cert.KernelIdeal.Bridge

end
-- ==== Proof.RefSide.lean ====
/-
  The reference's result.

  The reference computes, voxel by voxel over the unflattened [8, 1, 96, 160, 160] inputs, the cross-entropy plus one
  half of it under each of the two masks, sums all voxels from zero and divides by their number.
-/
import proofs.«172619_j56169582297100_2_alg».proof.Proof.Gen.ReferenceIdeal.Read
import proofs.«172619_j56169582297100_2_alg».proof.Proof.Pointwise
import Idealize.ShloMosaic.Lib.ValueIdx

noncomputable section

namespace Cert.ReferenceIdeal.Bridge

open Cert.ReferenceIdeal Cert.ReferenceIdeal.Gen Cert.ReferenceIdeal.Read Cert.Bridge
open Idealize.ShloMosaic Idealize.ShloMosaic.ValueIdx

/-- One voxel of the reference's weighted loss. -/
theorem val32_apply (x t : S8x1x96x160x160.Idx → EReal) (i : S8x1x96x160x160.Idx) :
    val_main_v32 (F := Ideal) x t i = weightedAdd (x i) (t i) := by
  simp only [val_main_v32_apply, val_main_v31_apply, val_main_v30_apply, val_main_v29_apply, val_main_cst_5_apply,
    val_main_v28_apply, val_main_v27_apply, val_main_v26_apply, val_main_v25_apply, val_main_cst_4_apply,
    val_main_v24_apply, val_main_v23_apply, val_main_v22_apply, val_main_v21_apply, val_main_v20_apply,
    val_main_v19_apply, val_main_v18_apply, val_main_v17_apply, val_main_v16_apply, val_main_cst_3_apply,
    val_main_v15_apply, val_main_v14_apply, val_main_v13_apply, val_main_v12_apply, val_main_v11_apply,
    val_main_v10_apply, val_main_v9_apply, val_main_v8_apply, val_main_cst_2_apply, val_main_v7_apply,
    val_main_v6_apply, val_main_cst_1_apply, val_main_v5_apply, val_main_v4_apply, val_main_cst_0_apply,
    val_main_v3_apply, val_main_v2_apply, val_main_cst_apply, val_main_v1_apply, val_main_v0_apply]
  rfl

/-- THE REFERENCE'S RESULT: zero plus the sum of the weighted loss over all voxels, divided by their number. -/
theorem result_eq (x t : S8x1x96x160x160.Idx → EReal) :
    val_main_v34 (F := Ideal) x t
      = fun _ => Ideal.div (Ideal.ofBits .f32 0x00000000#32 + ∑ i : S8x1x96x160x160.Idx, weightedAdd (x i) (t i))
          (Ideal.ofBits .f32 0x4B960000#32) := by
  funext i
  rw [val_main_v34_apply, val_main_v33_apply, val_main_cst_7_apply, val_main_cst_6_apply]
  simp only [val32_apply]
  rfl

end Cert.ReferenceIdeal.Bridge

end
-- ==== Proof.lean ====
/-
  The kernel and its reference compute the same mean loss on the extended reals.

  Both programs take predictions `x` and labels `t` over 8 × 1 × 96 × 160 × 160 voxels and return the mean over all
  voxels of the binary cross-entropy with logits, weighted 3/2 on the critical voxels (those where the thresholded
  prediction and the label disagree) and 1 elsewhere.

  The reference works voxel by voxel on the unflattened arrays: it thresholds the logistic function of `x` at 1/2,
  builds the two masks "label set, prediction not" and "prediction set, label not", adds one half of the loss under
  each, sums everything from zero and divides by the number of voxels.

  The kernel flattens the arrays to 2 halves × 76 800 rows × 128 lanes, walks each half in 12 tiles of 6 400 rows, and
  in each tile adds the 800 groups of 8 rows into an 8 × 128 accumulator that is zeroed at the first tile of a half and
  written back after the last; it thresholds `x` itself at 0 and multiplies the loss by one selected factor. The host
  then sums the 2 × 8 × 128 accumulator array from zero and divides by the number of voxels.

  The proof: the accumulator's staging buffer after each grid point is a running sum over the tiles walked so far
  (induction on the point); what is written back is therefore the sum over a half's 12 tiles and 800 groups; every
  row of the flattened input is gathered by exactly one accumulator entry, so the accumulator array's total is the sum
  over the flattened input, which flattening only renumbers; and voxel by voxel, on real arguments (the precondition
  says every input entry is finite), the logistic function exceeds 1/2 exactly when its argument is positive, the two
  masks exclude each other, and L·(3/2) = L + (1/2)·L. The two frames of the kernel and of its idealization are the
  generated ones; the reference's frame is its generated run with the result dropped; the idealization changed no
  operation, so nothing is owed for it.
-/
import proofs.«172619_j56169582297100_2_alg».proof.Defs
import proofs.«172619_j56169582297100_2_alg».proof.Proof.Gen.Kernel
import proofs.«172619_j56169582297100_2_alg».proof.Proof.Gen.Kernel.Skeleton
import proofs.«172619_j56169582297100_2_alg».proof.Proof.Gen.Kernel.Launch
import proofs.«172619_j56169582297100_2_alg».proof.Proof.Gen.Kernel.Points
import proofs.«172619_j56169582297100_2_alg».proof.Proof.Gen.Kernel.Frame
import proofs.«172619_j56169582297100_2_alg».proof.Proof.Gen.KernelIdeal
import proofs.«172619_j56169582297100_2_alg».proof.Proof.Gen.KernelIdeal.Skeleton
import proofs.«172619_j56169582297100_2_alg».proof.Proof.Gen.KernelIdeal.Launch
import proofs.«172619_j56169582297100_2_alg».proof.Proof.Gen.KernelIdeal.Points
import proofs.«172619_j56169582297100_2_alg».proof.Proof.Gen.KernelIdeal.Frame
import proofs.«172619_j56169582297100_2_alg».proof.Proof.Gen.ReferenceIdeal
import proofs.«172619_j56169582297100_2_alg».proof.Proof.Gen.Pre_finite_inputs
import proofs.«172619_j56169582297100_2_alg».proof.Proof.Gen.ReferenceIdeal.Run
import proofs.«172619_j56169582297100_2_alg».proof.Proof.Gen.ReferenceIdeal.Read
import proofs.«172619_j56169582297100_2_alg».proof.Proof.Total
import proofs.«172619_j56169582297100_2_alg».proof.Proof.RefSide
import Idealize.ShloMosaic.Adequacy
import Idealize.ShloMosaic.Init

noncomputable section

namespace Cert.Proof

open Idealize.ShloMosaic Idealize.SL.Sem Cert.Kernel

/-- The word-level kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on finite arguments both idealized programs end with the mean weighted loss. -/
theorem algebraic : Cert.algebraic_KernelIdeal_ReferenceIdeal := by
  intro m ρ m' ρ' hpre hagree
  refine ⟨fun c => Cert.KernelIdeal.Bridge.meanLoss
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Bridge.run m ρ)
    obtain ⟨hx, ht⟩ := Cert.Pre_finite_inputs.Bridge.finite_of_pre _ _ (hpre c)
    rw [Cert.KernelIdeal.Bridge.V_v0, Cert.KernelIdeal.Bridge.V_v1]
    exact Cert.KernelIdeal.Bridge.total_eq _ _ hx ht
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v34_eq, Cert.ReferenceIdeal.Bridge.result_eq, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
